-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S768x768 : Shape := ⟨2, ![768, 768]⟩
abbrev S768 : Shape := ⟨1, ![768]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S256x3x224x224 .f32) (main_arg1 : FVec F S768x768 .f32) (main_arg2 : FVec F S768 .f32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S256x3x224x224 : Shape := ⟨4, ![256, 3, 224, 224]⟩
abbrev S768x768 : Shape := ⟨2, ![768, 768]⟩
abbrev S768 : Shape := ⟨1, ![768]⟩
abbrev S256x3x14x16x14x16 : Shape := ⟨6, ![256, 3, 14, 16, 14, 16]⟩
abbrev S256x14x14x3x16x16 : Shape := ⟨6, ![256, 14, 14, 3, 16, 16]⟩
abbrev S256x196x768 : Shape := ⟨3, ![256, 196, 768]⟩
abbrev S50176x768 : Shape := ⟨2, ![50176, 768]⟩
abbrev S1x768 : Shape := ⟨2, ![1, 768]⟩
abbrev S512x768 : Shape := ⟨2, ![512, 768]⟩

abbrev nBuf : Space → Nat
  | .hbm => 13
  | .vmem => 6
  | .smem => 0
  | _ => 0

abbrev bufTy : (tb : Table) → Fin (tcTables nBuf tb) → BufTy
  | .hbm, ⟨0, _⟩ => ⟨S256x3x224x224, .f32⟩
  | .hbm, ⟨1, _⟩ => ⟨S768x768, .f32⟩
  | .hbm, ⟨2, _⟩ => ⟨S768, .f32⟩
  | .hbm, ⟨3, _⟩ => ⟨S256x3x14x16x14x16, .f32⟩
  | .hbm, ⟨4, _⟩ => ⟨S256x14x14x3x16x16, .f32⟩
  | .hbm, ⟨5, _⟩ => ⟨S256x196x768, .f32⟩
  | .hbm, ⟨6, _⟩ => ⟨S50176x768, .f32⟩
  | .hbm, ⟨7, _⟩ => ⟨S50176x768, .bf16⟩
  | .hbm, ⟨8, _⟩ => ⟨S768x768, .f32⟩
  | .hbm, ⟨9, _⟩ => ⟨S768x768, .bf16⟩
  | .hbm, ⟨10, _⟩ => ⟨S1x768, .f32⟩
  | .hbm, ⟨11, _⟩ => ⟨S50176x768, .f32⟩
  | .hbm, ⟨12, _⟩ => ⟨S256x196x768, .f32⟩
  | .local _ .vmem, ⟨0, _⟩ => ⟨S512x768, .bf16⟩
  | .local _ .vmem, ⟨1, _⟩ => ⟨S512x768, .bf16⟩
  | .local _ .vmem, ⟨2, _⟩ => ⟨S768x768, .bf16⟩
  | .local _ .vmem, ⟨3, _⟩ => ⟨S1x768, .f32⟩
  | .local _ .vmem, ⟨4, _⟩ => ⟨S512x768, .f32⟩
  | .local _ .vmem, ⟨5, _⟩ => ⟨S512x768, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x3x224x224_S256x3x14x16x14x16 : S256x3x224x224.ShapeCasts S256x3x14x16x14x16
  transposes_S256x3x14x16x14x16_S256x14x14x3x16x16_0_2_4_1_3_5 : S256x3x14x16x14x16.Transposes [0, 2, 4, 1, 3, 5] S256x14x14x3x16x16
  shapeCasts_S256x14x14x3x16x16_S256x196x768 : S256x14x14x3x16x16.ShapeCasts S256x196x768
  shapeCasts_S256x196x768_S50176x768 : S256x196x768.ShapeCasts S50176x768
  bitsLt_bf16_f32 : FTy.bits .bf16 < FTy.bits .f32
  transposes_S768x768_S768x768_1_0 : S768x768.Transposes [1, 0] S768x768
  shapeCasts_S768_S1x768 : S768.ShapeCasts S1x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S50176x768_S256x196x768 : S50176x768.ShapeCasts S256x196x768
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S50176x768.size a
  hwx0_0 : ∀ i : grid0.Coords, EltTy.bits .bf16 = 32 ∨ (Rect.block (s := S50176x768) S512x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S50176x768.size a
  hwx0_3 : ∀ i : grid0.Coords, EltTy.bits .f32 = 32 ∨ (Rect.block (s := S50176x768) S512x768.size (cc0_transform_3 i) (hinb0_3 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_v4) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S768x768 : Shape := ⟨2, ![768, 768]⟩
abbrev S768 : Shape := ⟨1, ![768]⟩
abbrev S256x3x14x16x14x16 : Shape := ⟨6, ![256, 3, 14, 16, 14, 16]⟩
abbrev S256x14x14x3x16x16 : Shape := ⟨6, ![256, 14, 14, 3, 16, 16]⟩
abbrev S256x196x768 : Shape := ⟨3, ![256, 196, 768]⟩
abbrev S1x1x768 : Shape := ⟨3, ![1, 1, 768]⟩

abbrev nBuf : Space → Nat
  | .hbm => 10
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S768x768, .f32⟩
  | .hbm, ⟨2, _⟩ => ⟨S768, .f32⟩
  | .hbm, ⟨3, _⟩ => ⟨S256x3x14x16x14x16, .f32⟩
  | .hbm, ⟨4, _⟩ => ⟨S256x14x14x3x16x16, .f32⟩
  | .hbm, ⟨5, _⟩ => ⟨S256x196x768, .f32⟩
  | .hbm, ⟨6, _⟩ => ⟨S256x196x768, .f32⟩
  | .hbm, ⟨7, _⟩ => ⟨S1x1x768, .f32⟩
  | .hbm, ⟨8, _⟩ => ⟨S256x196x768, .f32⟩
  | .hbm, ⟨9, _⟩ => ⟨S256x196x768, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S256x3x224x224_S256x3x14x16x14x16 : S256x3x224x224.ShapeCasts S256x3x14x16x14x16
  transposes_S256x3x14x16x14x16_S256x14x14x3x16x16_0_2_4_1_3_5 : S256x3x14x16x14x16.Transposes [0, 2, 4, 1, 3, 5] S256x14x14x3x16x16
  shapeCasts_S256x14x14x3x16x16_S256x196x768 : S256x14x14x3x16x16.ShapeCasts S256x196x768
  bcast_S768_S1x1x768_2 : S768.BroadcastsInDim S1x1x768 (![2] : Fin 1 → Fin S1x1x768.rank)
  bcast_S1x1x768_S256x196x768_0_1_2 : S1x1x768.BroadcastsInDim S256x196x768 (![0, 1, 2] : Fin 3 → Fin S256x196x768.rank)
  dot_S256x196x768_S768x768_S256x196x768_2_1_01_0_n_n_wf : DotDims.WF S256x196x768 S768x768 S256x196x768 [2] [1] [0, 1] [0] [] []

variable [Facts₀]

def dot_S256x196x768_S768x768_S256x196x768_2_1_01_0_n_n : DotDims S256x196x768 S768x768 S256x196x768 where
  lhsContracting := [2]
  rhsContracting := [1]
  lhsNonContracting := [0, 1]
  rhsNonContracting := [0]
  lhsBatch := []
  rhsBatch := []
  wf := dot_S256x196x768_S768x768_S256x196x768_2_1_01_0_n_n_wf

class Facts : Prop extends Facts₀ where

variable [Facts]
-- ==== Proof.Spec.lean ====
/-
  The patch embedding as one function of three arrays.

  An image is cut into 196 patches of 768 pixels; `P (n, p, k)` is pixel `k` of patch `p` of image `n`. Token `(n, p)`
  is the patch's pixels against each row `h` of the weight matrix, plus the bias:
      tokens (n, p, h) = Σ_k P (n, p, k) · W (h, k) + b (h).
  The same numbers laid out as a matrix: with the 50176 = 256 · 196 patches as rows `r = 196 n + p`, the weights
  transposed and the bias as a one-row matrix,
      rows (r, h) = Σ_k A (r, k) · Wt (k, h) + b₂ (0, h).
  Both are sums and products of extended reals only, so they are defined at ±∞ as well and need no finiteness.
-/
import Idealize.ShloMosaic.PureOps.Ideal
import Idealize.ShloMosaic.Lib.ValueIdx

noncomputable section

open Idealize.ShloMosaic Idealize.ShloMosaic.ValueIdx
open scoped BigOperators

namespace Cert.PatchEmbed

/-- Token `(n, p, h)`: patch `(n, p)` against row `h` of the weights, plus the bias at `h`. -/
def tokens (P : (⟨3, ![256, 196, 768]⟩ : Shape).Idx → EReal) (W : (⟨2, ![768, 768]⟩ : Shape).Idx → EReal)
    (b : (⟨1, ![768]⟩ : Shape).Idx → EReal) : (⟨3, ![256, 196, 768]⟩ : Shape).Idx → EReal :=
  fun i => (∑ k : Fin 768, P (ix3 (i 0) (i 1) k) * W (ix2 (i 2) k)) + b (ix1 (i 2))

/-- Entry `(r, h)` of the patch matrix times the transposed weights, plus the bias row. -/
def rows (A : (⟨2, ![50176, 768]⟩ : Shape).Idx → EReal) (Wt : (⟨2, ![768, 768]⟩ : Shape).Idx → EReal)
    (b₂ : (⟨2, ![1, 768]⟩ : Shape).Idx → EReal) : (⟨2, ![50176, 768]⟩ : Shape).Idx → EReal :=
  fun i => (∑ k : Fin 768, A (ix2 (i 0) k) * Wt (ix2 k (i 1))) + b₂ (ix2 (0 : Fin 1) (i 1))

/-- The two layouts agree: if row `196 n + p` of `A` is patch `(n, p)`, `Wt` is `W` transposed and `b₂`'s one row is
    `b`, then `rows` at `(196 n + p, h)` is `tokens` at `(n, p, h)`. -/
theorem rows_eq_tokens (P : (⟨3, ![256, 196, 768]⟩ : Shape).Idx → EReal) (W : (⟨2, ![768, 768]⟩ : Shape).Idx → EReal)
    (b : (⟨1, ![768]⟩ : Shape).Idx → EReal)
    (A : (⟨2, ![50176, 768]⟩ : Shape).Idx → EReal) (Wt : (⟨2, ![768, 768]⟩ : Shape).Idx → EReal)
    (b₂ : (⟨2, ![1, 768]⟩ : Shape).Idx → EReal)
    (n : Fin 256) (p : Fin 196) (h : Fin 768) (r : Fin 50176) (hr : r.val = n.val * 196 + p.val)
    (hA : ∀ k : Fin 768, A (ix2 r k) = P (ix3 n p k))
    (hW : ∀ k : Fin 768, Wt (ix2 k h) = W (ix2 h k))
    (hb : b₂ (ix2 (0 : Fin 1) h) = b (ix1 h)) :
    rows A Wt b₂ (ix2 r h) = tokens P W b (ix3 n p h) := by
  unfold rows tokens
  show (∑ k : Fin 768, A (ix2 r k) * Wt (ix2 k h)) + b₂ (ix2 (0 : Fin 1) h)
      = (∑ k : Fin 768, P (ix3 n p k) * W (ix2 h k)) + b (ix1 h)
  rw [hb]
  exact congrArg (· + b (ix1 h)) (Finset.sum_congr rfl fun k _ => by rw [hA k, hW k])

end Cert.PatchEmbed

end
-- ==== Proof.RefTokens.lean ====
/-
  The reference computes `tokens`.

  Its program is: cut the images into patches (a reshape, a transpose of the six axes, a reshape — kept here as ONE array
  `patches`, never opened), contract the pixel axis of the patches with the second axis of the weights, and add the bias
  broadcast along images and patches. Read at an index `(n, p, h)` that is Σ_k patches (n, p, k) · W (h, k) + b (h).
-/
import proofs.«163871_j49237505081621_2_alg».proof.Proof.Gen.ReferenceIdeal.Read
import proofs.«163871_j49237505081621_2_alg».proof.Proof.Spec

noncomputable section

open Idealize.ShloMosaic Idealize.ShloMosaic.ValueIdx
open scoped BigOperators

namespace Cert.ReferenceIdeal.Tokens

open Cert.ReferenceIdeal Cert.ReferenceIdeal.Gen Cert.ReferenceIdeal.Read Cert.PatchEmbed

/-- The images cut into patches: `patches (n, p, k)` is pixel `k` of patch `p` of image `n`. -/
abbrev patches (x0 : (⟨S256x3x224x224, .f32⟩ : BufTy).Contents (Elt Ideal)) : (⟨S256x196x768, .f32⟩ : BufTy).Contents (Elt Ideal) :=
  val_main_v2 (F := Ideal) x0

/-- The reference's result is `tokens` of the patches, the weights and the bias. -/
theorem result_eq (x0 : (⟨S256x3x224x224, .f32⟩ : BufTy).Contents (Elt Ideal)) (x1 : (⟨S768x768, .f32⟩ : BufTy).Contents (Elt Ideal))
    (x2 : (⟨S768, .f32⟩ : BufTy).Contents (Elt Ideal)) :
    val_main_v6 (F := Ideal) x0 x1 x2 = tokens (patches x0) x1 x2 := by
  funext i
  have el : ∀ k : Fin 768, lidx_main_v3 i k = ix3 (i 0) (i 1) k := fun k =>
    funext fun a => Fin.ext (by match a with | ⟨0, _⟩ => rfl | ⟨1, _⟩ => rfl | ⟨2, _⟩ => rfl)
  have er : ∀ k : Fin 768, ridx_main_v3 i k = ix2 (i 2) k := fun k =>
    funext fun a => Fin.ext (by match a with | ⟨0, _⟩ => rfl | ⟨1, _⟩ => rfl)
  have eb : idx_main_v4 (idx_main_v5 i) = ix1 (i 2) :=
    funext fun a => Fin.ext (by match a with | ⟨0, _⟩ => rfl)
  rw [val_main_v6_apply, val_main_v3_apply, val_main_v5_apply, val_main_v4_apply, eb]
  simp only [el, er]
  rfl

end Cert.ReferenceIdeal.Tokens

end
-- ==== Proof.Entry.lean ====
/-
  The three arrays the kernel's region finds, read at an index.

  Before the region the program cuts the images into patches (the same reshape, transpose, reshape as the reference:
  kept as ONE array `patches`, never opened), flattens the patches to the rows of a [50176, 768] matrix, transposes the
  weights, and views the bias as one row; the two changes of float format are the identity on the extended reals. So
      row `196 n + p` of the patch matrix is patch `(n, p)`;
      the weight operand at `(k, h)` is `W (h, k)`;
      the bias operand's one row at `h` is `b (h)`.
-/
import proofs.«163871_j49237505081621_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx Idealize.SL.Sem

namespace Cert.KernelIdeal.Entry

open Cert.KernelIdeal Cert.KernelIdeal.Gen

variable (m : (ℓ : Loc nD τ sig) → Buf (Elt Ideal) ℓ)

/-- The images cut into patches: `patches (n, p, k)` is pixel `k` of patch `p` of image `n`. -/
abbrev patches (x0 : (⟨S256x3x224x224, .f32⟩ : BufTy).Contents (Elt Ideal)) : (⟨S256x196x768, .f32⟩ : BufTy).Contents (Elt Ideal) :=
  shapeCast _ (transpose S256x14x14x3x16x16 [0, 2, 4, 1, 3, 5] (shapeCast _ x0 shapeCasts_S256x3x224x224_S256x3x14x16x14x16)
    transposes_S256x3x14x16x14x16_S256x14x14x3x16x16_0_2_4_1_3_5) shapeCasts_S256x14x14x3x16x16_S256x196x768

/-- The patch operand is the patches flattened to rows. -/
theorem patchRows_eq (c : Dev nD) : (V m c main_v4 : S50176x768.Idx → EReal)
    = truncf (F := Ideal) .bf16 (shapeCast S50176x768 (patches (m ((c.tc : Thread nD τ).loc main_arg0))) shapeCasts_S256x196x768_S50176x768) bitsLt_bf16_f32 := by
  show StableHlo.after hostOps0 (fun b => m (c, b)) (Proc.devRef .tc main_v4) = _
  after_results <;> rfl

/-- The weight operand is the weights transposed. -/
theorem weightsT_eq (c : Dev nD) : (V m c main_v6 : S768x768.Idx → EReal)
    = truncf (F := Ideal) .bf16 (transpose S768x768 [1, 0] (m ((c.tc : Thread nD τ).loc main_arg1)) transposes_S768x768_S768x768_1_0) bitsLt_bf16_f32 := by
  show StableHlo.after hostOps0 (fun b => m (c, b)) (Proc.devRef .tc main_v6) = _
  after_results <;> rfl

/-- The bias operand is the bias as one row. -/
theorem biasRow_eq (c : Dev nD) : (V m c main_v7 : S1x768.Idx → EReal)
    = shapeCast S1x768 (m ((c.tc : Thread nD τ).loc main_arg2)) shapeCasts_S768_S1x768 := by
  show StableHlo.after hostOps0 (fun b => m (c, b)) (Proc.devRef .tc main_v7) = _
  after_results <;> rfl

/-- Row `196 n + p` of the patch operand is patch `(n, p)`. -/
theorem patchRows_at (c : Dev nD) (n : Fin 256) (p : Fin 196) (r : Fin 50176) (hr : r.val = n.val * 196 + p.val) (k : Fin 768) :
    (V m c main_v4 : S50176x768.Idx → EReal) (ix2 r k) = patches (m ((c.tc : Thread nD τ).loc main_arg0)) (ix3 n p k) := by
  rw [patchRows_eq, truncf_apply]
  refine shapeCast_apply _ _ (ix2 r k) (ix3 n p k) ?_
  rw [Shape.rowMajor_val_three, Shape.rowMajor_val_two]
  show (n.val * 196 + p.val) * 768 + k.val = r.val * 768 + k.val
  rw [hr]

/-- The weight operand at `(k, h)` is the weight matrix at `(h, k)`. -/
theorem weightsT_at (c : Dev nD) (k h : Fin 768) :
    (V m c main_v6 : S768x768.Idx → EReal) (ix2 k h) = (m ((c.tc : Thread nD τ).loc main_arg1) : S768x768.Idx → EReal) (ix2 h k) := by
  rw [weightsT_eq, truncf_apply]
  exact transpose_ix2_apply _ _ k h

/-- The bias operand's one row at `h` is the bias at `h`. -/
theorem biasRow_at (c : Dev nD) (h : Fin 768) :
    (V m c main_v7 : S1x768.Idx → EReal) (ix2 (0 : Fin 1) h) = (m ((c.tc : Thread nD τ).loc main_arg2) : S768.Idx → EReal) (ix1 h) := by
  rw [biasRow_eq]
  exact shapeCast_a_1a_apply _ _ 0 h

end Cert.KernelIdeal.Entry

end
-- ==== Proof.Body.lean ====
/-
  What the kernel body computes on one block.

  The body loads a [512, 768] block `a` of patch rows, the whole [768, 768] transposed weight matrix `w` and the
  [1, 768] bias row `b`, multiplies `a` by `w` into a zero accumulator, adds the bias row broadcast over the 512 rows,
  and stores the result. On the extended reals entry `(p, q)` of what it stores is Σ_k a (p, k) · w (k, q) + b (0, q).
-/
import proofs.«163871_j49237505081621_2_alg».proof.Proof.Gen.KernelIdeal.Skeleton
import proofs.«163871_j49237505081621_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Body

open Cert.KernelIdeal Cert.KernelIdeal.Gen Cert.PatchEmbed

local notation "D" => dot_S512x768_S768x768_S512x768_1_0_0_1_n_n

/-- The left operand is read at the output's row … -/
theorem lhs_row (j : S512x768.Idx) (c : (D).contr.Idx) : ((D).lhsIdx j c 0).val = (j 0).val := by
  unfold DotDims.lhsIdx
  rw [dif_neg (show ¬(0 : Fin S512x768.rank) ∈ (D).lhsBatch by decide),
    dif_pos (show (0 : Fin S512x768.rank) ∈ (D).lhsNonContracting by decide)]
  rfl
/-- … and the contracted column, -/
theorem lhs_col (j : S512x768.Idx) (c : (D).contr.Idx) : ((D).lhsIdx j c 1).val = (c ⟨0, by decide⟩).val :=
  (D).lhsIdx_val_of_single rfl j c
/-- the right operand at the contracted row … -/
theorem rhs_row (j : S512x768.Idx) (c : (D).contr.Idx) : ((D).rhsIdx j c 0).val = (c ⟨0, by decide⟩).val :=
  (D).rhsIdx_val_of_single rfl j c
/-- … and the output's column. -/
theorem rhs_col (j : S512x768.Idx) (c : (D).contr.Idx) : ((D).rhsIdx j c 1).val = (j 1).val := by
  unfold DotDims.rhsIdx
  rw [dif_neg (show ¬(1 : Fin S768x768.rank) ∈ (D).rhsBatch by decide),
    dif_pos (show (1 : Fin S768x768.rank) ∈ (D).rhsNonContracting by decide)]
  rfl

/-- The block product at `(p, q)`: the contraction runs over the 768 columns of `a` and rows of `w`. -/
theorem matmul_at (a : FVec Ideal S512x768 .bf16) (w : FVec Ideal S768x768 .bf16) (p : Fin 512) (q : Fin 768) :
    matmul (F := Ideal) D none a w (constant S512x768 .f32 0x00000000#32) (ix2 p q)
      = ∑ k : Fin 768, a (ix2 p k) * w (ix2 k q) := by
  simp only [matmul]
  rw [Ideal.matmul_constant_zero_apply, ← Equiv.sum_comp (contrEquiv1 D 768 rfl rfl).symm]
  refine Finset.sum_congr rfl fun k _ => ?_
  have hk := contrEquiv1_symm_val D 768 rfl rfl k
  have el : (D).lhsIdx (ix2 p q) ((contrEquiv1 D 768 rfl rfl).symm k) = ix2 p k :=
    funext fun ax => Fin.ext (by
      match ax with
      | ⟨0, _⟩ => exact lhs_row _ _
      | ⟨1, _⟩ => exact (lhs_col _ _).trans hk)
  have er : (D).rhsIdx (ix2 p q) ((contrEquiv1 D 768 rfl rfl).symm k) = ix2 k q :=
    funext fun ax => Fin.ext (by
      match ax with
      | ⟨0, _⟩ => exact (rhs_row _ _).trans hk
      | ⟨1, _⟩ => exact rhs_col _ _)
  rw [el, er]

/-- What the body stores, at `(p, q)`: the block product there plus the bias at `q`. -/
theorem stored_at (a : Vec Ideal S512x768 .bf16) (w : Vec Ideal S768x768 .bf16) (b : Vec Ideal S1x768 .f32)
    (p : Fin 512) (q : Fin 768) :
    k0_pay1 (F := Ideal) a w b (ix2 p q) = (∑ k : Fin 768, a (ix2 p k) * w (ix2 k q)) + b (ix2 (0 : Fin 1) q) := by
  unfold k0_pay1
  rw [addf_apply, shapeCast_self, shapeCast_self, shapeCast_self, matmul_at, broadcastTo_1b_ab_apply]

/-- A stored block is a block of `rows`: if the loaded block's row `j₀` is row `i₀` of a matrix `A`, the loaded weights' column
    `j₁` is column `i₁` of `Wt` and the loaded bias at `j₁` is `b₂` at `i₁`, then what the body stores at `j` is `rows A Wt b₂` at `i`. -/
theorem stored_eq_rows (a : Vec Ideal S512x768 .bf16) (w : Vec Ideal S768x768 .bf16) (b : Vec Ideal S1x768 .f32)
    (A : (⟨2, ![50176, 768]⟩ : Shape).Idx → EReal) (Wt : (⟨2, ![768, 768]⟩ : Shape).Idx → EReal)
    (b₂ : (⟨2, ![1, 768]⟩ : Shape).Idx → EReal) (j : S512x768.Idx) (i : (⟨2, ![50176, 768]⟩ : Shape).Idx)
    (ha : ∀ k : Fin 768, a (ix2 (j 0) k) = A (ix2 (i 0) k))
    (hw : ∀ k : Fin 768, w (ix2 k (j 1)) = Wt (ix2 k (i 1)))
    (hb : b (ix2 (0 : Fin 1) (j 1)) = b₂ (ix2 (0 : Fin 1) (i 1))) :
    k0_pay1 (F := Ideal) a w b j = rows A Wt b₂ i := by
  obtain ⟨p, q, rfl⟩ : ∃ (p : Fin 512) (q : Fin 768), j = ix2 p q := ⟨j 0, j 1, eq_ix2 j⟩
  rw [stored_at]
  unfold rows
  change (∑ k : Fin 768, a (ix2 p k) * w (ix2 k q)) + b (ix2 (0 : Fin 1) q) = _
  rw [show b (ix2 (0 : Fin 1) q) = b₂ (ix2 (0 : Fin 1) (i 1)) from hb]
  exact congrArg (· + b₂ (ix2 (0 : Fin 1) (i 1))) (Finset.sum_congr rfl fun k _ => by
    rw [show a (ix2 p k) = A (ix2 (i 0) k) from ha k, show w (ix2 k q) = Wt (ix2 k (i 1)) from hw k])

end Cert.KernelIdeal.Body

end
-- ==== Proof.Blocks.lean ====
/-
  From blocks to the array.

  The grid has 98 points; point `t` stages rows `512 t … 512 t + 511` of the patch matrix, the whole transposed weight
  matrix and the bias row, and writes back rows `512 t … 512 t + 511` of the result. What point `t` writes back is that
  block of `rows` of the three operands; row `r` lies in the block of point `r / 512`, so the 98 blocks cover the
  [50176, 768] result and it ends holding `rows`.
-/
import proofs.«163871_j49237505081621_2_alg».proof.Proof.Gen.KernelIdeal.Frame
import proofs.«163871_j49237505081621_2_alg».proof.Proof.Body
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Blocks

open Cert.KernelIdeal Cert.KernelIdeal.Gen Cert.PatchEmbed

variable (m : (ℓ : Loc nD τ sig) → Buf (Elt Ideal) ℓ)

theorem zero_offsets : (![0, 0] : Fin 2 → Nat) = fun _ => 0 := funext fun a => by fin_cases a <;> rfl

/-- Where each window's block sits at point `t`: the patch rows and the result rows at block row `t`, the weights and the
    bias at their one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result as one function of the three operands as the region finds them. -/
abbrev result (c : Dev nD) : (⟨2, ![50176, 768]⟩ : Shape).Idx → EReal :=
  rows (V m c main_v4) (V m c main_v6) (V m c main_v7)

/-- What point `t` writes back is block `t` of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero zero_offsets]
  simp only [View.ld_unit_zero (S := S512x768) zero_offsets, View.ld_unit_zero (S := S768x768) zero_offsets,
    View.ld_unit_zero (S := S1x768) zero_offsets]
  obtain ⟨a0, a1, w0, w1, b0, b1, o0, o1⟩ := block_index t
  funext j
  show k0_pay1 (F := Ideal) (iblk m c 0 t) (iblk m c 1 t) (iblk m c 2 t) j = result m c (((cfg0.win 3).blk t).view.emb j)
  have hj0 : (j 0).val < 512 := (j 0).isLt
  have hj1 : (j 1).val < 768 := (j 1).isLt
  refine Body.stored_eq_rows (iblk m c 0 t) (iblk m c 1 t) (iblk m c 2 t) (V m c main_v4) (V m c main_v6) (V m c main_v7) j
    (((cfg0.win 3).blk t).view.emb j) (fun k => ?_) (fun k => ?_) ?_
  · show V m c main_v4 (((cfg0.win 0).blk t).view.emb (ix2 (j 0) k)) = V m c main_v4 (ix2 ((((cfg0.win 3).blk t).view.emb j) 0) k)
    refine congrArg (V m c main_v4) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 768 + 1 * k.val = k.val; omega
  · show V m c main_v6 (((cfg0.win 1).blk t).view.emb (ix2 k (j 1))) = V m c main_v6 (ix2 k ((((cfg0.win 3).blk t).view.emb j) 1))
    refine congrArg (V m c main_v6) (funext fun a => Fin.ext ?_)
    match a with
    | ⟨0, _⟩ => show win0_1.index t (0 : Fin 2) * 768 + 1 * k.val = k.val; omega
    | ⟨1, _⟩ => show win0_1.index t (1 : Fin 2) * 768 + 1 * (j 1).val = win0_3.index t (1 : Fin 2) * 768 + 1 * (j 1).val; omega
  · show V m c main_v7 (((cfg0.win 2).blk t).view.emb (ix2 (0 : Fin 1) (j 1))) = V m c main_v7 (ix2 (0 : Fin 1) ((((cfg0.win 3).blk t).view.emb j) 1))
    refine congrArg (V m c main_v7) (funext fun a => Fin.ext ?_)
    match a with
    | ⟨0, _⟩ => show win0_2.index t (0 : Fin 2) * 1 + 1 * 0 = 0; omega
    | ⟨1, _⟩ => show win0_2.index t (1 : Fin 2) * 768 + 1 * (j 1).val = win0_3.index t (1 : Fin 2) * 768 + 1 * (j 1).val; omega

/-- An index of the result is in point `t`'s block iff each coordinate is in the block's range on its axis. -/
theorem mem_block (t : Fin cfg0.N) (i : S50176x768.Idx) :
    i ∈ ((cfg0.win 3).blk t).view.set ↔ ∀ a : Fin 2, win0_3.index t a * S512x768.size a ≤ (i a).val
      ∧ (i a).val < win0_3.index t a * S512x768.size a + S512x768.size a := by
  show i ∈ ((View.whole main_v8).slice (win0_3.rect t)).set ↔ _
  rw [View.set_slice_whole, Rect.mem_set_unit]
  exact Iff.rfl

/-- Row `r` is written back by point `r / 512`: the blocks cover the result. -/
theorem covered (i : S50176x768.Idx) :
    ∃ t : Fin cfg0.N, (cfg0.win 3).flush t = true ∧ i ∈ ((cfg0.win 3).blk t).view.set := by
  have hi0 : (i 0).val < 50176 := (i 0).isLt
  have hi1 : (i 1).val < 768 := (i 1).isLt
  have hN : cfg0.N = 98 := N_0
  obtain ⟨t, ht⟩ : ∃ t : Fin cfg0.N, t.val = (i 0).val / 512 := ⟨⟨(i 0).val / 512, by rw [hN]; omega⟩, rfl⟩
  obtain ⟨-, -, -, -, -, -, o0, o1⟩ := block_index t
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 768 ≤ (i 1).val ∧ (i 1).val < win0_3.index t (1 : Fin 2) * 768 + 768; omega

/-- The result array after the last point is `result`. -/
theorem final (c : Dev nD) : (dats m 0 c).arrAt 3 cfg0.N = result m c :=
  (dats m 0 c).arrAt_eq_of_cover 3 (result m c) (fun t _ => flushed_eq m c t) (covered)

end Cert.KernelIdeal.Blocks

end
-- ==== Proof.KernelTokens.lean ====
/-
  The kernel program computes `tokens`.

  After the region the program views the [50176, 768] result as [256, 196, 768]: token `(n, p, h)` is row `196 n + p`,
  column `h`. The region leaves `rows` of its three operands there; row `196 n + p` of the patch operand is patch `(n, p)`,
  the weight operand is the weights transposed and the bias operand is the bias as one row, so by `rows_eq_tokens`
  the program's result is `tokens` of the patches, the weights and the bias.
-/
import proofs.«163871_j49237505081621_2_alg».proof.Proof.Gen.KernelIdeal.Frame
import proofs.«163871_j49237505081621_2_alg».proof.Proof.Entry
import proofs.«163871_j49237505081621_2_alg».proof.Proof.Blocks
import Idealize.ShloMosaic.Lib.StableHlo.Run
import Idealize.ShloMosaic.Lib.Pipeline.Value

noncomputable section

open Idealize.ShloMosaic Idealize.ShloMosaic.TcCoe Idealize.ShloMosaic.ValueIdx Idealize.SL.Sem

namespace Cert.KernelIdeal.Tokens

open Cert.KernelIdeal Cert.KernelIdeal.Gen Cert.PatchEmbed

variable (m : (ℓ : Loc nD τ sig) → Buf (Elt Ideal) ℓ) (ρ : Dev nD → PrngReg)

/-- The program's result as a function of its three arguments. -/
abbrev result (c : Dev nD) : (⟨3, ![256, 196, 768]⟩ : Shape).Idx → EReal :=
  tokens (Entry.patches (m ((c.tc : Thread nD τ).loc main_arg0))) (m ((c.tc : Thread nD τ).loc main_arg1))
    (m ((c.tc : Thread nD τ).loc main_arg2))

/-- What the program's last line leaves: the region's result array viewed as [256, 196, 768]. -/
theorem tail_eq (c : Dev nD) :
    (Pipeline.afterTail₀ cfgs (dats m) 0 (V0 m) [hostOps1] c main_v9 : S256x196x768.Idx → EReal)
      = shapeCast S256x196x768 (Blocks.result m c) shapeCasts_S50176x768_S256x196x768 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = Blocks.result m c :=
    (Pipeline.withArrays_arr spec0 launch0.win.arr_inj c _ _ 3).trans (Blocks.final m c)
  rw [e]
  rfl

/-- Index by index that view is `tokens`. -/
theorem result_eq (c : Dev nD) :
    (Pipeline.afterTail₀ cfgs (dats m) 0 (V0 m) [hostOps1] c main_v9 : S256x196x768.Idx → EReal) = result m c := by
  rw [tail_eq]
  funext i
  obtain ⟨n, p, h, rfl⟩ : ∃ (n : Fin 256) (p : Fin 196) (h : Fin 768), i = ix3 n p h := ⟨i 0, i 1, i 2, eq_ix3 i⟩
  have hr : n.val * 196 + p.val < 50176 := by have := n.isLt; have := p.isLt; omega
  refine (shapeCast_apply _ _ (ix3 n p h) (ix2 (⟨n.val * 196 + p.val, hr⟩ : Fin 50176) h) ?_).trans ?_
  · rw [Shape.rowMajor_val_two, Shape.rowMajor_val_three]
    rfl
  · exact rows_eq_tokens _ _ _ _ _ _ n p h ⟨n.val * 196 + p.val, hr⟩ rfl
      (fun k => Entry.patchRows_at m c n p ⟨n.val * 196 + p.val, hr⟩ rfl k)
      (fun k => Entry.weightsT_at m c k h) (Entry.biasRow_at m c h)

/-- Every weakly fair execution of the program ends with its result at `tokens` of the arguments, the arguments unchanged. -/
theorem run : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tokens

end
-- ==== Proof.Claims.lean ====
/-
  The five claims.

  The three frames: the kernel program's two (at the word level and on the extended reals) are the generated frame runs;
  the reference's is its generated run with the result dropped. The idealization rewrote nothing, so `preserves` is `True`.
  The algebraic claim: on the extended reals the kernel program ends with its result at `tokens` of the patches, the
  weights and the bias, and so does the reference from arguments that agree — the two programs cut the images into
  patches by the same three operations, so the patches are the same array.
-/
import proofs.«163871_j49237505081621_2_alg».proof.Defs
import proofs.«163871_j49237505081621_2_alg».proof.Proof.Gen.Kernel.Frame
import proofs.«163871_j49237505081621_2_alg».proof.Proof.Gen.KernelIdeal.Frame
import proofs.«163871_j49237505081621_2_alg».proof.Proof.Gen.ReferenceIdeal.Run
import proofs.«163871_j49237505081621_2_alg».proof.Proof.Gen.ReferenceIdeal.Read
import proofs.«163871_j49237505081621_2_alg».proof.Proof.Gen.Pre_finite_inputs
import proofs.«163871_j49237505081621_2_alg».proof.Proof.RefTokens
import proofs.«163871_j49237505081621_2_alg».proof.Proof.KernelTokens

noncomputable section

open Idealize.ShloMosaic Idealize.ShloMosaic.TcCoe Idealize.SL.Sem

namespace Cert.Proof.Claims

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs cut the images into patches by the same reshape, transpose and reshape. -/
theorem patches_eq (x0 : (⟨Cert.KernelIdeal.S256x3x224x224, .f32⟩ : BufTy).Contents (Elt Ideal)) :
    Cert.ReferenceIdeal.Tokens.patches x0 = Cert.KernelIdeal.Entry.patches x0 := rfl

/-- Both programs end at `tokens` of the patches, the weights and the bias. -/
theorem algebraic : Cert.algebraic_KernelIdeal_ReferenceIdeal := by
  intro m ρ m' ρ' _ hagree
  refine ⟨fun c => Cert.KernelIdeal.Tokens.result m c, Cert.KernelIdeal.Tokens.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Tokens.result_eq, (hagree c).1, (hagree c).2.1,
    (hagree c).2.2, patches_eq]

end Cert.Proof.Claims

end
-- ==== Proof.lean ====
/-
  A patch embedding: 256 images of 3 × 224 × 224 pixels are cut into 14 × 14 patches of 3 × 16 × 16 = 768 pixels each,
  and every patch is mapped to 768 numbers by a weight matrix `W` and a bias `b`:
      token (n, p, h) = Σ_k patch (n, p, k) · W (h, k) + b (h).

  The kernel program flattens the 256 · 196 = 50176 patches to the rows of a matrix, multiplies it by `W` transposed 512 rows
  at a time (98 blocks), adds the bias row to every row, and views the product as [256, 196, 768]. The reference contracts the
  pixel axis of the patches with the second axis of `W` directly and adds the broadcast bias. On the extended reals a
  change of float format is the identity and a sum does not depend on how it is split into blocks, so both compute the
  function above: `Cert.PatchEmbed.tokens` (Proof/Spec.lean). Only sums and products are compared, term by term, so the
  equality holds at infinite entries too and the finiteness of the inputs is never used.

  The modules: Spec (the function, in its [256, 196, 768] and its [50176, 768] layout, and that the two agree), RefTokens
  (the reference computes it), Body (one block of the kernel), Entry (the operands the kernel's region finds, read at an
  index), Blocks (the 98 blocks cover the result), KernelTokens (the kernel program computes it), Claims (the five claims).
-/
import proofs.«163871_j49237505081621_2_alg».proof.Defs
import proofs.«163871_j49237505081621_2_alg».proof.Proof.Gen.Kernel
import proofs.«163871_j49237505081621_2_alg».proof.Proof.Gen.Kernel.Skeleton
import proofs.«163871_j49237505081621_2_alg».proof.Proof.Gen.Kernel.Launch
import proofs.«163871_j49237505081621_2_alg».proof.Proof.Gen.Kernel.Points
import proofs.«163871_j49237505081621_2_alg».proof.Proof.Gen.Kernel.Frame
import proofs.«163871_j49237505081621_2_alg».proof.Proof.Gen.KernelIdeal
import proofs.«163871_j49237505081621_2_alg».proof.Proof.Gen.KernelIdeal.Skeleton
import proofs.«163871_j49237505081621_2_alg».proof.Proof.Gen.KernelIdeal.Launch
import proofs.«163871_j49237505081621_2_alg».proof.Proof.Gen.KernelIdeal.Points
import proofs.«163871_j49237505081621_2_alg».proof.Proof.Gen.KernelIdeal.Frame
import proofs.«163871_j49237505081621_2_alg».proof.Proof.Gen.ReferenceIdeal
import proofs.«163871_j49237505081621_2_alg».proof.Proof.Gen.Pre_finite_inputs
import proofs.«163871_j49237505081621_2_alg».proof.Proof.Gen.ReferenceIdeal.Run
import proofs.«163871_j49237505081621_2_alg».proof.Proof.Gen.ReferenceIdeal.Read
import proofs.«163871_j49237505081621_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
